-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x64 : Shape := ⟨2, ![1000000, 64]⟩
abbrev S1000000 : Shape := ⟨1, ![1000000]⟩
abbrev S64x64 : Shape := ⟨2, ![64, 64]⟩
abbrev S64 : Shape := ⟨1, ![64]⟩
abbrev S_ : Shape := ⟨0, ![]⟩

class Facts : Prop where
  bcast_S_S1000000x64 : S_.BroadcastsInDim S1000000x64 (![] : Fin 0 → Fin S1000000x64.rank)
  reducesTo_S1000000x64_S_d0_1 : S1000000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S1000000x64 .f32) (main_arg1 : IVec S1000000 1) (main_arg2 : FVec F S64x64 .f32) (main_arg3 : FVec F S64 .f32) : IVec S_ 1 :=
  let main_v0 : FVec F S1000000x64 .f32 := Host.absf main_arg0
  let main_cst : FVec F S_ .f32 := constant S_ .f32 0x7F800000#32
  let main_v1 : FVec F S1000000x64 .f32 := broadcastInDim S1000000x64 ![] bcast_S_S1000000x64 main_cst
  let main_v2 : IVec S1000000x64 1 := cmpf .olt main_v0 main_v1
  let main_c : IVec S_ 1 := constantI S_ 1 1#1
  let main_v3 : IVec S_ 1 := (fun x v => Host.reduce IntOp.andi x v reducesTo_S1000000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S1000000x64 : Shape := ⟨2, ![1000000, 64]⟩
abbrev S1000000 : Shape := ⟨1, ![1000000]⟩
abbrev S64x64 : Shape := ⟨2, ![64, 64]⟩
abbrev S64 : Shape := ⟨1, ![64]⟩
abbrev S500000x128 : Shape := ⟨2, ![500000, 128]⟩
abbrev S500000x2 : Shape := ⟨2, ![500000, 2]⟩
abbrev S_ : Shape := ⟨0, ![]⟩
abbrev S64x128 : Shape := ⟨2, ![64, 128]⟩
abbrev S128x128 : Shape := ⟨2, ![128, 128]⟩
abbrev S128 : Shape := ⟨1, ![128]⟩
abbrev S1x128 : Shape := ⟨2, ![1, 128]⟩
abbrev S4000x128 : Shape := ⟨2, ![4000, 128]⟩
abbrev S4000x2 : Shape := ⟨2, ![4000, 2]⟩
abbrev S4000x1 : Shape := ⟨2, ![4000, 1]⟩

abbrev nBuf : Space → Nat
  | .hbm => 30
  | .vmem => 9
  | .smem => 0
  | _ => 0

abbrev bufTy : (tb : Table) → Fin (tcTables nBuf tb) → BufTy
  | .hbm, ⟨0, _⟩ => ⟨S1000000x64, .f32⟩
  | .hbm, ⟨1, _⟩ => ⟨S1000000, .i1⟩
  | .hbm, ⟨2, _⟩ => ⟨S64x64, .f32⟩
  | .hbm, ⟨3, _⟩ => ⟨S64, .f32⟩
  | .hbm, ⟨4, _⟩ => ⟨S500000x128, .f32⟩
  | .hbm, ⟨5, _⟩ => ⟨S1000000, .f32⟩
  | .hbm, ⟨6, _⟩ => ⟨S500000x2, .f32⟩
  | .hbm, ⟨7, _⟩ => ⟨S_, .f32⟩
  | .hbm, ⟨8, _⟩ => ⟨S64x64, .f32⟩
  | .hbm, ⟨9, _⟩ => ⟨S64x128, .f32⟩
  | .hbm, ⟨10, _⟩ => ⟨S64x128, .f32⟩
  | .hbm, ⟨11, _⟩ => ⟨S128x128, .f32⟩
  | .hbm, ⟨12, _⟩ => ⟨S128x128, .i32⟩
  | .hbm, ⟨13, _⟩ => ⟨S128x128, .i32⟩
  | .hbm, ⟨14, _⟩ => ⟨S_, .i32⟩
  | .hbm, ⟨15, _⟩ => ⟨S128x128, .i32⟩
  | .hbm, ⟨16, _⟩ => ⟨S128x128, .i32⟩
  | .hbm, ⟨17, _⟩ => ⟨S128x128, .i1⟩
  | .hbm, ⟨18, _⟩ => ⟨S128x128, .f32⟩
  | .hbm, ⟨19, _⟩ => ⟨S128x128, .f32⟩
  | .hbm, ⟨20, _⟩ => ⟨S128, .f32⟩
  | .hbm, ⟨21, _⟩ => ⟨S1x128, .f32⟩
  | .hbm, ⟨22, _⟩ => ⟨S_, .f32⟩
  | .hbm, ⟨23, _⟩ => ⟨S64, .f32⟩
  | .hbm, ⟨24, _⟩ => ⟨S_, .f32⟩
  | .hbm, ⟨25, _⟩ => ⟨S64, .f32⟩
  | .hbm, ⟨26, _⟩ => ⟨S128, .f32⟩
  | .hbm, ⟨27, _⟩ => ⟨S1x128, .f32⟩
  | .hbm, ⟨28, _⟩ => ⟨S500000x128, .f32⟩
  | .hbm, ⟨29, _⟩ => ⟨S1000000x64, .f32⟩
  | .local _ .vmem, ⟨0, _⟩ => ⟨S4000x128, .f32⟩
  | .local _ .vmem, ⟨1, _⟩ => ⟨S4000x128, .f32⟩
  | .local _ .vmem, ⟨2, _⟩ => ⟨S4000x2, .f32⟩
  | .local _ .vmem, ⟨3, _⟩ => ⟨S4000x2, .f32⟩
  | .local _ .vmem, ⟨4, _⟩ => ⟨S128x128, .f32⟩
  | .local _ .vmem, ⟨5, _⟩ => ⟨S1x128, .f32⟩
  | .local _ .vmem, ⟨6, _⟩ => ⟨S1x128, .f32⟩
  | .local _ .vmem, ⟨7, _⟩ => ⟨S4000x128, .f32⟩
  | .local _ .vmem, ⟨8, _⟩ => ⟨S4000x128, .f32⟩
  | _, _ => ⟨S1000000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_call0_v0 : Ref sig .tc := ⟨.hbm, 9, rfl⟩
abbrev main_call0_v1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S1000000x64_S500000x128 : S1000000x64.ShapeCasts S500000x128
  shapeCasts_S1000000_S500000x2 : S1000000.ShapeCasts S500000x2
  bcast_S_S64x64 : S_.BroadcastsInDim S64x64 (![] : Fin 0 → Fin S64x64.rank)
  concatenates_S64x64_S64x64_S64x128_d1 : Shape.Concatenates [S64x64, S64x64] S64x128 1
  concatenates_S64x128_S64x128_S128x128_d0 : Shape.Concatenates [S64x128, S64x128] S128x128 0
  bcast_S_S128x128 : S_.BroadcastsInDim S128x128 (![] : Fin 0 → Fin S128x128.rank)
  concatenates_S64_S64_S128_d0 : Shape.Concatenates [S64, S64] S128 0
  shapeCasts_S128_S1x128 : S128.ShapeCasts S1x128
  bcast_S_S64 : S_.BroadcastsInDim S64 (![] : Fin 0 → Fin S64.rank)
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S4000x2_S4000x2_0_0 : ∀ a, (![0, 0] : Fin 2 → Nat) a + S4000x2.size a ≤ S4000x2.size a
  h_S4000x2 : 0 < S4000x2.numel
  shapeCasts_S4000x2_S4000x2 : S4000x2.ShapeCasts S4000x2
  slices_S4000x2_o0_0_S4000x1 : S4000x2.Slices ![0, 0] S4000x1
  slices_S4000x2_o0_1_S4000x1 : S4000x2.Slices ![0, 1] S4000x1
  broadcasts_S4000x1_S4000x128 : S4000x1.Broadcasts S4000x128
  shapeCasts_S500000x128_S1000000x64 : S500000x128.ShapeCasts S1000000x64
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S500000x128.size a
  hwx0_0 : ∀ i : grid0.Coords, EltTy.bits .f32 = 32 ∨ (Rect.block (s := S500000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x2.size a ≤ S500000x2.size a
  hwx0_1 : ∀ i : grid0.Coords, EltTy.bits .f32 = 32 ∨ (Rect.block (s := S500000x2) S4000x2.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x128.size a ≤ S500000x128.size a
  hwx0_5 : ∀ i : grid0.Coords, EltTy.bits .f32 = 32 ∨ (Rect.block (s := S500000x128) S4000x128.size (cc0_transform_5 i) (hinb0_5 i)).WholeWords (EltTy.packing .f32)

variable [Facts₀]

def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_v0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S4000x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v17) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18) S4000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S1000000x64 : Shape := ⟨2, ![1000000, 64]⟩
abbrev S1000000 : Shape := ⟨1, ![1000000]⟩
abbrev S64x64 : Shape := ⟨2, ![64, 64]⟩
abbrev S64 : Shape := ⟨1, ![64]⟩
abbrev S1x64 : Shape := ⟨2, ![1, 64]⟩
abbrev S1000000x1 : Shape := ⟨2, ![1000000, 1]⟩

abbrev nBuf : Space → Nat
  | .hbm => 11
  | .vmem => 0
  | .smem => 0
  | _ => 0

abbrev bufTy : (tb : Table) → Fin (tcTables nBuf tb) → BufTy
  | .hbm, ⟨0, _⟩ => ⟨S1000000x64, .f32⟩
  | .hbm, ⟨1, _⟩ => ⟨S1000000, .i1⟩
  | .hbm, ⟨2, _⟩ => ⟨S64x64, .f32⟩
  | .hbm, ⟨3, _⟩ => ⟨S64, .f32⟩
  | .hbm, ⟨4, _⟩ => ⟨S1000000x64, .f32⟩
  | .hbm, ⟨5, _⟩ => ⟨S1x64, .f32⟩
  | .hbm, ⟨6, _⟩ => ⟨S1000000x64, .f32⟩
  | .hbm, ⟨7, _⟩ => ⟨S1000000x64, .f32⟩
  | .hbm, ⟨8, _⟩ => ⟨S1000000x1, .i1⟩
  | .hbm, ⟨9, _⟩ => ⟨S1000000x64, .i1⟩
  | .hbm, ⟨10, _⟩ => ⟨S1000000x64, .f32⟩
  | _, _ => ⟨S1000000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_v0 : Ref sig .tc := ⟨.hbm, 9, rfl⟩
abbrev main_v5 : Ref sig .tc := ⟨.hbm, 10, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S1000000x64_0_1 : S1x64.BroadcastsInDim S1000000x64 (![0, 1] : Fin 2 → Fin S1000000x64.rank)
  bcast_S1000000_S1000000x1_0 : S1000000.BroadcastsInDim S1000000x1 (![0] : Fin 1 → Fin S1000000x1.rank)
  bcast_S1000000x1_S1000000x64_0_1 : S1000000x1.BroadcastsInDim S1000000x64 (![0, 1] : Fin 2 → Fin S1000000x64.rank)
  dot_S1000000x64_S64x64_S1000000x64_1_0_0_1_n_n_wf : DotDims.WF S1000000x64 S64x64 S1000000x64 [1] [0] [0] [1] [] []

variable [Facts₀]

def dot_S1000000x64_S64x64_S1000000x64_1_0_0_1_n_n : DotDims S1000000x64 S64x64 S1000000x64 where
  lhsContracting := [1]
  rhsContracting := [0]
  lhsNonContracting := [0]
  rhsNonContracting := [1]
  lhsBatch := []
  rhsBatch := []
  wf := dot_S1000000x64_S64x64_S1000000x64_1_0_0_1_n_n_wf

class Facts : Prop extends Facts₀ where

variable [Facts]
-- ==== Proof.Spec.lean ====
/-
  A linear layer applied to the rows a mask selects, computed two rows at a time.

  The input has 1000000 rows of 64 entries.  The reference replaces row R by x_R · W + b where the mask bit of R is set and
  keeps it otherwise (`maskedAt`).  The kernel lays two consecutive rows 2r, 2r+1 side by side in one packed row of 128
  entries, entry 64·h + k of packed row r being entry k of row 2r + h, and computes, for the packed row,
      x + mc · (x · V + b2),         V = blockdiag(W, W) - I,   mc = m0 + g · (m1 - m0),
  where b2 is b twice, m0 and m1 are the two rows' mask bits as the numbers 0 and 1, and g is 0 on the first half of the
  packed row and 1 on the second (`packedAt`).  Since V is block diagonal, the contraction over the 128 packed entries splits
  into the two halves (`sum_packed`); the half belonging to the other row meets a zero block and vanishes, and the own half
  gives x_R · W - x_R (`own_half`, from `real_row`: the identity's column picks out one entry).  So the kernel's value is
  x_R + m · ((x_R · W - x_R) + b), which is x_R · W + b for m = 1 and x_R for m = 0 — for entries that are real numbers:
  the step  x · (W - I) = x · W - x  is distributivity, which fails at infinities (`packed_eq_masked`).
-/
import Idealize.ShloMosaic.PureOps.Ideal
import Idealize.ShloMosaic.PureOps.Ideal.Laws
import Idealize.ShloMosaic.Lib.ValueIdx
import Mathlib.Tactic.Ring

noncomputable section

open scoped BigOperators

namespace Cert.MaskedLinear

open Idealize.ShloMosaic Idealize.ShloMosaic.ValueIdx

/-- The coercion of the reals into the extended reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Entry `k` of half `h` of a packed row of 128. -/
def pk (h : Fin 2) (k : Fin 64) : Fin 128 := ⟨64 * h.val + k.val, by omega⟩
/-- The row that half `h` of packed row `r` holds. -/
def row2 (r : Fin 500000) (h : Fin 2) : Fin 1000000 := ⟨2 * r.val + h.val, by omega⟩

@[simp] theorem pk_val (h : Fin 2) (k : Fin 64) : (pk h k).val = 64 * h.val + k.val := rfl
@[simp] theorem row2_val (r : Fin 500000) (h : Fin 2) : (row2 r h).val = 2 * r.val + h.val := rfl

/-- A sum over a packed row is the sum over its first half plus the sum over its second half. -/
theorem sum_packed {M : Type*} [AddCommMonoid M] (f : Fin 128 → M) :
    ∑ c, f c = ∑ k : Fin 64, f (pk 0 k) + ∑ k : Fin 64, f (pk 1 k) := by
  have e0 : ∀ k : Fin 64, Fin.castAdd 64 k = pk 0 k := fun k => Fin.ext (by simp)
  have e1 : ∀ k : Fin 64, Fin.natAdd 64 k = pk 1 k := fun k => Fin.ext (by simp; omega)
  rw [Fin.sum_univ_add (a := 64) (b := 64) f]
  simp only [e0, e1]

/-- Every entry of a packed row is in one of the halves. -/
theorem exists_pk (j : Fin 128) : ∃ (h : Fin 2) (o : Fin 64), j = pk h o := by
  by_cases hj : j.val < 64
  · exact ⟨0, ⟨j.val, hj⟩, Fin.ext (by simp)⟩
  · exact ⟨1, ⟨j.val - 64, by omega⟩, Fin.ext (by simp; omega)⟩

/-- Every row is a half of a packed row. -/
theorem exists_row2 (R : Fin 1000000) : ∃ (r : Fin 500000) (h : Fin 2), R = row2 r h :=
  ⟨⟨R.val / 2, by omega⟩, ⟨R.val % 2, by omega⟩, Fin.ext (by simp; omega)⟩

/-- Contracting a row with a column of `W - I` is contracting it with the column of `W` and subtracting the row's entry there. -/
theorem real_row (xa w : Fin 64 → ℝ) (o : Fin 64) :
    ∑ k, xa k * (w k - (if k = o then 1 else 0)) = ∑ k, xa k * w k - xa o := by
  simp [mul_sub, Finset.sum_sub_distrib]

/-- The same on extended reals with real entries. -/
theorem own_half (xa w : Fin 64 → ℝ) (o : Fin 64) :
    ∑ k, (xa k : EReal) * ((w k : EReal) - ((if k = o then (1 : ℝ) else 0 : ℝ) : EReal))
      = ((∑ k, xa k * w k - xa o : ℝ) : EReal) := by
  rw [← real_row, coe_sum]
  refine Finset.sum_congr rfl fun k _ => ?_
  rw [← EReal.coe_sub, ← EReal.coe_mul]

/-- The reference: row `R` through the linear layer where its mask bit is set, unchanged otherwise, at entry `o`. -/
def maskedAt (x : (⟨2, ![1000000, 64]⟩ : Shape).Idx → EReal) (mask : (⟨1, ![1000000]⟩ : Shape).Idx → BitVec 1)
    (W : (⟨2, ![64, 64]⟩ : Shape).Idx → EReal) (b : (⟨1, ![64]⟩ : Shape).Idx → EReal) (R : Fin 1000000) (o : Fin 64) : EReal :=
  Scalar.select (mask (ix1 R)) ((∑ k : Fin 64, x (ix2 R k) * W (ix2 k o)) + b (ix1 o)) (x (ix2 R o))

/-- The kernel: packed row `r` at entry `j`, from the packed input, the two mask bits of the row as numbers, the matrix
    `V`, the doubled bias and the half selector. -/
def packedAt (x2 : (⟨2, ![500000, 128]⟩ : Shape).Idx → EReal) (m2 : (⟨2, ![500000, 2]⟩ : Shape).Idx → EReal)
    (vm : (⟨2, ![128, 128]⟩ : Shape).Idx → EReal) (b2 gs : (⟨2, ![1, 128]⟩ : Shape).Idx → EReal)
    (r : Fin 500000) (j : Fin 128) : EReal :=
  x2 (ix2 r j) + (m2 (ix2 r (0 : Fin 2)) + gs (ix2 (0 : Fin 1) j) * (m2 (ix2 r (1 : Fin 2)) - m2 (ix2 r (0 : Fin 2)))) *
    ((∑ c : Fin 128, x2 (ix2 r c) * vm (ix2 c j)) + b2 (ix2 (0 : Fin 1) j))

/-- For real entries, the kernel's packed value at half `h`, entry `o` of packed row `r` is the reference's value at
    row `2r + h`, entry `o`. -/
theorem packed_eq_masked
    (x : (⟨2, ![1000000, 64]⟩ : Shape).Idx → EReal) (mask : (⟨1, ![1000000]⟩ : Shape).Idx → BitVec 1)
    (W : (⟨2, ![64, 64]⟩ : Shape).Idx → EReal) (b : (⟨1, ![64]⟩ : Shape).Idx → EReal)
    (hx : ∀ i, ∃ t : ℝ, x i = t) (hW : ∀ i, ∃ t : ℝ, W i = t) (hb : ∀ i, ∃ t : ℝ, b i = t)
    (x2 : (⟨2, ![500000, 128]⟩ : Shape).Idx → EReal) (m2 : (⟨2, ![500000, 2]⟩ : Shape).Idx → EReal)
    (vm : (⟨2, ![128, 128]⟩ : Shape).Idx → EReal) (b2 gs : (⟨2, ![1, 128]⟩ : Shape).Idx → EReal)
    (hx2 : ∀ r (h : Fin 2) k, x2 (ix2 r (pk h k)) = x (ix2 (row2 r h) k))
    (hm2 : ∀ r (h : Fin 2), m2 (ix2 r h) = (((mask (ix1 (row2 r h))).toNat : ℝ) : EReal))
    (hvs : ∀ (h : Fin 2) k o, vm (ix2 (pk h k) (pk h o)) = W (ix2 k o) - ((if k = o then (1 : ℝ) else 0 : ℝ) : EReal))
    (hvd : ∀ (hc hj : Fin 2) k o, hc ≠ hj → vm (ix2 (pk hc k) (pk hj o)) = 0 - 0)
    (hb2 : ∀ (h : Fin 2) o, b2 (ix2 (0 : Fin 1) (pk h o)) = b (ix1 o))
    (hg0 : ∀ o, gs (ix2 (0 : Fin 1) (pk 0 o)) = 0) (hg1 : ∀ o, gs (ix2 (0 : Fin 1) (pk 1 o)) = 1)
    (r : Fin 500000) (h : Fin 2) (o : Fin 64) :
    packedAt x2 m2 vm b2 gs r (pk h o) = maskedAt x mask W b (row2 r h) o := by
  choose xr hxr using hx
  choose Wr hWr using hW
  choose br hbr using hb
  have own : ∀ h : Fin 2, (∑ k : Fin 64, x2 (ix2 r (pk h k)) * vm (ix2 (pk h k) (pk h o)))
      = ((∑ k, xr (ix2 (row2 r h) k) * Wr (ix2 k o) - xr (ix2 (row2 r h) o) : ℝ) : EReal) := fun h => by
    rw [← own_half]
    refine Finset.sum_congr rfl fun k _ => ?_
    rw [hx2, hvs, hxr, hWr]
  have other : ∀ hc hj : Fin 2, hc ≠ hj → (∑ k : Fin 64, x2 (ix2 r (pk hc k)) * vm (ix2 (pk hc k) (pk hj o))) = 0 :=
    fun hc hj hne => Finset.sum_eq_zero fun k _ => by rw [hvd hc hj k o hne, sub_zero, mul_zero]
  have ref : (∑ k : Fin 64, x (ix2 (row2 r h) k) * W (ix2 k o))
      = ((∑ k, xr (ix2 (row2 r h) k) * Wr (ix2 k o) : ℝ) : EReal) := by
    rw [coe_sum]
    refine Finset.sum_congr rfl fun k _ => ?_
    rw [hxr, hWr, EReal.coe_mul]
  have t0 : (((0#1 : BitVec 1).toNat : ℝ) : EReal) = 0 := by simp
  have t1 : (((1#1 : BitVec 1).toNat : ℝ) : EReal) = 1 := by simp
  unfold packedAt maskedAt
  rw [sum_packed, ref, hx2, hm2, hm2, hb2, hxr, hbr]
  have hh : h = 0 ∨ h = 1 := by
    have : h.val = 0 ∨ h.val = 1 := by omega
    rcases this with e | e
    · exact Or.inl (Fin.ext e)
    · exact Or.inr (Fin.ext e)
  rcases hh with rfl | rfl
  · rw [own 0, other 1 0 (by decide), hg0, zero_mul, add_zero, add_zero]
    rcases BitVec.eq_zero_or_eq_one (mask (ix1 (row2 r 0))) with e | e
    · rw [e, t0, zero_mul, add_zero, select_zero]
    · rw [e, t1, one_mul, select_one, ← EReal.coe_add, ← EReal.coe_add, ← EReal.coe_add]
      congr 1; ring
  · rw [own 1, other 0 1 (by decide), hg1, one_mul, zero_add]
    have hm : ∀ a c : ℕ, ((a : ℝ) : EReal) + (((c : ℝ) : EReal) - ((a : ℝ) : EReal)) = ((c : ℝ) : EReal) := fun a c => by
      rw [← EReal.coe_sub, ← EReal.coe_add]; congr 1; ring
    rw [hm]
    rcases BitVec.eq_zero_or_eq_one (mask (ix1 (row2 r 1))) with e | e
    · rw [e, t0, zero_mul, add_zero, select_zero]
    · rw [e, t1, one_mul, select_one, ← EReal.coe_add, ← EReal.coe_add, ← EReal.coe_add]
      congr 1; ring

end Cert.MaskedLinear

end
-- ==== Proof.Finite.lean ====
/-
  Every entry of the three floating-point inputs is a real number.

  The precondition is the conjunction of three statements of one form, one for the input of 1000000 rows of 64 entries, one
  for the 64 by 64 weight and one for the bias of 64 entries: every entry x of the array satisfies |x| < +infinity.  In the
  extended reals |x| is max x (-x), and the comparison is the strict order of the extended reals against the value of the
  bit pattern 0x7F800000, which is +infinity.  For x = +infinity and for x = -infinity the absolute value is +infinity, which
  is not below +infinity; so an entry that passes the test is neither, and an extended real that is neither infinity is the
  image of a real number (`real_of_abs_lt_top`).

  Each "for every entry" is expressed as a reduction of the array of one-bit test results by "and", started from 1, into a
  result with a single index; the three results are joined by two further "and"s, and the claim says the final bit is 1.
  An "and" of two bits is 1 only when both are, which splits the final bit into the three results; a reduction by "and" into
  a single index that is 1 met a 1 at every index of its operand, which gives the test at each entry (`entries_real`).
-/
import proofs.«101948_g44169443672662_cont_sun_m_478_8_alg».proof.Pre_finite_inputs
import Idealize.ShloMosaic.PureOps.Ideal
import Idealize.ShloMosaic.Lib.ReduceAll
import Idealize.ShloMosaic.Lib.ValueIdx

noncomputable section

namespace Cert.MaskedLinear.Finite

open Idealize.ShloMosaic Idealize.ShloMosaic.ValueIdx

/-- The scalar shape has exactly one index: an index is a function on the empty set of axes. -/
instance : Subsingleton Cert.Pre_finite_inputs.S_.Idx := ⟨fun a b => funext fun d => d.elim0⟩

/-- The bit pattern 0x7F800000 of the 32-bit format denotes +infinity. -/
theorem inf_bits : Ideal.ofBits .f32 0x7F800000#32 = (⊤ : EReal) := by simp [Ideal.ofBits, Ideal.ieee]

/-- An extended real whose absolute value max x (-x) tests strictly below +infinity is a real number: at either infinity
    the absolute value is +infinity, which is not strictly below itself. -/
theorem real_of_abs_lt_top (x : EReal)
    (h : Ideal.cmp .olt (max x (-x)) (Ideal.ofBits .f32 0x7F800000#32) = 1#1) : ∃ t : ℝ, x = (t : EReal) := by
  rw [inf_bits] at h
  induction x using EReal.rec with
  | bot => simp [Ideal.cmp] at h
  | coe t => exact ⟨t, rfl⟩
  | top => simp [Ideal.cmp] at h

/-- Under the precondition every entry of the input array, of the weight and of the bias is a real number. The claimed
    bit is an "and" of three reductions by "and"; each of them is 1, so each one-bit test it reduces is 1 at every index,
    and a passed test makes the entry real. -/
theorem entries_real [Cert.Pre_finite_inputs.Facts]
    (a0 : FVec Ideal Cert.Pre_finite_inputs.S1000000x64 .f32) (a1 : IVec Cert.Pre_finite_inputs.S1000000 1)
    (a2 : FVec Ideal Cert.Pre_finite_inputs.S64x64 .f32) (a3 : FVec Ideal Cert.Pre_finite_inputs.S64 .f32)
    (hpre : Cert.Pre_finite_inputs.fn (F := Ideal) a0 a1 a2 a3 = fun _ => 1#1) :
    (∀ i, ∃ t : ℝ, a0 i = (t : EReal)) ∧ (∀ i, ∃ t : ℝ, a2 i = (t : EReal)) ∧ (∀ i, ∃ t : ℝ, a3 i = (t : EReal)) := by
  have h := congrFun hpre ix0
  dsimp only [Cert.Pre_finite_inputs.fn] at h
  obtain ⟨h02, h3⟩ := IntOp.andi_eq_one.1 h
  obtain ⟨h0, h2⟩ := IntOp.andi_eq_one.1 h02
  refine ⟨fun i => ?_, fun i => ?_, fun i => ?_⟩
  · exact real_of_abs_lt_top _ (Host.reduce_andi_all _ _ _ _ _ h0 i)
  · exact real_of_abs_lt_top _ (Host.reduce_andi_all _ _ _ _ _ h2 i)
  · exact real_of_abs_lt_top _ (Host.reduce_andi_all _ _ _ _ _ h3 i)

end Cert.MaskedLinear.Finite
-- ==== Proof.RefRead.lean ====
/-
  The reference program, read at one entry.

  The reference computes, for the input x of 1000000 rows of 64 entries, the mask of 1000000 bits, the 64 by 64 weight W and
  the bias b of 64 entries: the product x · W, contracted over the 64 entries of a row; plus b, repeated along the rows; and
  then, row by row, it keeps that value where the row's mask bit is set and the row of x itself where it is not.  At the entry
  in row R and column o this is
      select (mask R) ((∑ k, x (R, k) * W (k, o)) + b o) (x (R, o)),
  the specification's `maskedAt`.  Every operation of the program produces its entry from one entry of each operand (the
  contraction: from the 64 pairs of entries it sums over), read at an index computed from the result's index: the repeated
  bias reads b at the column, the repeated mask reads the mask at the row, the contraction reads x at (R, k) and W at (k, o).
  The proof names the entry's two coordinates, identifies each of those computed indices with the index built from the
  coordinates, and rewrites the program's value through its operations from the last one to the first (`ref_eq`).
-/
import proofs.«101948_g44169443672662_cont_sun_m_478_8_alg».proof.Proof.Gen.ReferenceIdeal.Read
import proofs.«101948_g44169443672662_cont_sun_m_478_8_alg».proof.Proof.Spec

noncomputable section

open scoped BigOperators

namespace Cert.MaskedLinear.RefRead

open Idealize.ShloMosaic Idealize.ShloMosaic.ValueIdx Cert.ReferenceIdeal Cert.ReferenceIdeal.Read

/-- The reference program's result is, at row `i 0` and column `i 1`, the masked linear layer of the specification: the
    contraction of the row with the column of the weight plus the bias entry where the row's mask bit is set, the input's
    own entry where it is not. -/
theorem ref_eq [Cert.ReferenceIdeal.Facts]
    (x0 : (⟨Cert.ReferenceIdeal.S1000000x64, .f32⟩ : BufTy).Contents (Elt Ideal))
    (x1 : (⟨Cert.ReferenceIdeal.S1000000, .i1⟩ : BufTy).Contents (Elt Ideal))
    (x2 : (⟨Cert.ReferenceIdeal.S64x64, .f32⟩ : BufTy).Contents (Elt Ideal))
    (x3 : (⟨Cert.ReferenceIdeal.S64, .f32⟩ : BufTy).Contents (Elt Ideal)) :
    Cert.ReferenceIdeal.Read.val_main_v5 (F := Ideal) x0 x1 x2 x3
      = fun i => Cert.MaskedLinear.maskedAt x0 x1 x2 x3 (i 0) (i 1) := by
  funext i
  obtain ⟨R, o, rfl⟩ : ∃ (R : Fin 1000000) (o : Fin 64), i = ix2 R o := ⟨i 0, i 1, eq_ix2 i⟩
  -- the repeated mask reads the mask at the row
  have em : idx_main_v4 (idx_main_call0_v0 (ix2 R o)) = ix1 R :=
    funext fun a => Fin.ext (by match a with | ⟨0, _⟩ => rfl)
  -- the repeated bias reads the bias at the column
  have eb : idx_main_v1 (idx_main_v2 (ix2 R o)) = ix1 o :=
    funext fun a => Fin.ext (by match a with | ⟨0, _⟩ => rfl)
  -- the contraction reads the input at (R, k) and the weight at (k, o)
  have el : ∀ k : Fin 64, lidx_main_v0 (ix2 R o) k = ix2 R k := fun k =>
    funext fun a => Fin.ext (by match a with | ⟨0, _⟩ => rfl | ⟨1, _⟩ => rfl)
  have er : ∀ k : Fin 64, ridx_main_v0 (ix2 R o) k = ix2 k o := fun k =>
    funext fun a => Fin.ext (by match a with | ⟨0, _⟩ => rfl | ⟨1, _⟩ => rfl)
  rw [val_main_v5_apply, val_main_call0_v0_apply, val_main_v4_apply, val_main_v3_apply, val_main_v0_apply,
    val_main_v2_apply, val_main_v1_apply, em, eb]
  simp only [el, er]
  unfold Cert.MaskedLinear.maskedAt
  rfl

end Cert.MaskedLinear.RefRead
-- ==== Proof.HostForms.lean ====
/-
  The arrays the kernel is launched on, as functions of the arguments.

  Before the kernel runs, the host re-lays the four arguments: the input's 1000000 rows of 64 are read as 500000 packed rows of
  128 (`packX`: two consecutive rows side by side); the mask bits become the numbers 0 and 1 and are read as 500000 pairs
  (`packM`); the 64 × 64 weight `W` is placed twice on the diagonal of a 128 × 128 matrix whose off-diagonal blocks are zero
  (`blockDiag`), from which the 128 × 128 identity (`eye128`: 1 where the row and column positions agree, else 0) is
  subtracted (`matV`); the bias is written twice in a row of 128 (`bias2`); and a row of 128 holds 0 on its first half
  and 1 on its second (`halfSel`).  Each definition is the host's operations, in the order they are applied.
-/
import proofs.«101948_g44169443672662_cont_sun_m_478_8_alg».proof.KernelIdeal
import Idealize.ShloMosaic.PureOps.Ideal

noncomputable section

namespace Cert.MaskedLinear.HostForms

open Idealize.ShloMosaic Cert.KernelIdeal
open Cert.KernelIdeal.Facts₀

variable [Cert.KernelIdeal.Facts]

/-- The input read two rows per packed row. -/
def packX (x : FVec Ideal S1000000x64 .f32) : FVec Ideal S500000x128 .f32 :=
  shapeCast S500000x128 x shapeCasts_S1000000x64_S500000x128

/-- The mask bits as numbers, read two per packed row. -/
def packM (mask : IVec S1000000 1) : FVec Ideal S500000x2 .f32 :=
  shapeCast S500000x2 (uitofp (F := Ideal) .f32 mask) shapeCasts_S1000000_S500000x2

/-- The 64 × 64 zero matrix. -/
def zeros64 : FVec Ideal S64x64 .f32 :=
  broadcastInDim S64x64 ![] bcast_S_S64x64 (constant (F := Ideal) S_ .f32 0x00000000#32)

/-- `W` twice on the diagonal of a 128 × 128 matrix, zero blocks off it: the rows [W 0] over the rows [0 W]. -/
def blockDiag (W : FVec Ideal S64x64 .f32) : FVec Ideal S128x128 .f32 :=
  concatenate S128x128 0
    [⟨S64x128, concatenate S64x128 1 [⟨S64x64, W⟩, ⟨S64x64, zeros64⟩] concatenates_S64x64_S64x64_S64x128_d1⟩,
     ⟨S64x128, concatenate S64x128 1 [⟨S64x64, zeros64⟩, ⟨S64x64, W⟩] concatenates_S64x64_S64x64_S64x128_d1⟩]
    concatenates_S64x128_S64x128_S128x128_d0

/-- The 128 × 128 identity: the test "row position + 0 = column position" as the number 1 or 0. -/
def eye128 : FVec Ideal S128x128 .f32 :=
  uitofp (F := Ideal) .f32 (cmpi .eq
    (addi (iotaInDim S128x128 32 0) (broadcastInDim S128x128 ![] bcast_S_S128x128 (constantI S_ 32 0#32)))
    (iotaInDim S128x128 32 1))

/-- The matrix the kernel contracts with: blockdiag(W, W) - I. -/
def matV (W : FVec Ideal S64x64 .f32) : FVec Ideal S128x128 .f32 := subf (blockDiag W) eye128

/-- The bias twice, as one row of 128. -/
def bias2 (b : FVec Ideal S64 .f32) : FVec Ideal S1x128 .f32 :=
  shapeCast S1x128 (concatenate S128 0 [⟨S64, b⟩, ⟨S64, b⟩] concatenates_S64_S64_S128_d0) shapeCasts_S128_S1x128

/-- Sixty-four zeros then sixty-four ones, as one row of 128. -/
def halfSel : FVec Ideal S1x128 .f32 :=
  shapeCast S1x128 (concatenate S128 0
    [⟨S64, broadcastInDim S64 ![] bcast_S_S64 (constant (F := Ideal) S_ .f32 0x00000000#32)⟩,
     ⟨S64, broadcastInDim S64 ![] bcast_S_S64 (constant (F := Ideal) S_ .f32 0x3F800000#32)⟩]
    concatenates_S64_S64_S128_d0) shapeCasts_S128_S1x128

end Cert.MaskedLinear.HostForms

end
-- ==== Proof.Prefix.lean ====
/-
  What the kernel finds, and what the program returns.

  When the kernel is entered, its five operand arrays hold the host's re-laid arguments: the packed input, the mask pairs, the
  matrix blockdiag(W, W) - I, the doubled bias and the half selector, each the definition of that name applied to the
  argument arrays as the program was launched on them (`found_*`).  After the kernel, the program's result is the kernel's
  packed result array read as 1000000 rows of 64 again (`returned_eq`).
-/
import proofs.«101948_g44169443672662_cont_sun_m_478_8_alg».proof.Proof.Gen.KernelIdeal.Frame
import proofs.«101948_g44169443672662_cont_sun_m_478_8_alg».proof.Proof.HostForms
import Idealize.ShloMosaic.Lib.StableHlo.Run
import Idealize.ShloMosaic.Lib.Pipeline.Value

set_option maxRecDepth 16384

noncomputable section

namespace Cert.MaskedLinear.Prefix

open Idealize.ShloMosaic Idealize.ShloMosaic.TcCoe Idealize.SL.Sem Idealize.ShloMosaic.StableHlo
open Cert.KernelIdeal Cert.KernelIdeal.Gen Cert.MaskedLinear.HostForms
open Cert.KernelIdeal.Facts₀

variable (m : (ℓ : Loc nD τ sig) → Buf (Elt Ideal) ℓ)

/-- The kernel finds the packed input. -/
theorem found_x (c : Dev nD) :
    (V m c main_v0 : S500000x128.Idx → EReal) = packX (m ((c : Thread nD τ).loc main_arg0)) := by
  dsimp only [V, V0]
  simp only [hostOps0, hostOps0_1, hostOps0_2, List.flatten_cons, List.flatten_nil, List.append_nil, List.cons_append, List.nil_append]
  after_results
  rfl

/-- The kernel finds the mask pairs. -/
theorem found_m (c : Dev nD) :
    (V m c main_v2 : S500000x2.Idx → EReal) = packM (m ((c : Thread nD τ).loc main_arg1)) := by
  dsimp only [V, V0]
  simp only [hostOps0, hostOps0_1, hostOps0_2, List.flatten_cons, List.flatten_nil, List.append_nil, List.cons_append, List.nil_append]
  after_results
  rfl

/-- The kernel finds blockdiag(W, W) - I. -/
theorem found_v (c : Dev nD) :
    (V m c main_v11 : S128x128.Idx → EReal) = matV (m ((c : Thread nD τ).loc main_arg2)) := by
  dsimp only [V, V0]
  simp only [hostOps0, hostOps0_1, hostOps0_2, List.flatten_cons, List.flatten_nil, List.append_nil, List.cons_append, List.nil_append]
  after_results
  rfl

/-- The kernel finds the doubled bias. -/
theorem found_b (c : Dev nD) :
    (V m c main_v13 : S1x128.Idx → EReal) = bias2 (m ((c : Thread nD τ).loc main_arg3)) := by
  dsimp only [V, V0]
  simp only [hostOps0, hostOps0_1, hostOps0_2, List.flatten_cons, List.flatten_nil, List.append_nil, List.cons_append, List.nil_append]
  after_results
  rfl

/-- The kernel finds the half selector. -/
theorem found_g (c : Dev nD) : (V m c main_v17 : S1x128.Idx → EReal) = halfSel := by
  dsimp only [V, V0]
  simp only [hostOps0, hostOps0_1, hostOps0_2, List.flatten_cons, List.flatten_nil, List.append_nil, List.cons_append, List.nil_append]
  after_results
  rfl

/-- The program's result is the kernel's result array read as 1000000 rows of 64. -/
theorem returned_eq (c : Dev nD) :
    (Pipeline.afterTail₀ cfgs (dats m) 0 (V0 m) [hostOps1] c main_v19 : S1000000x64.Idx → EReal)
      = shapeCast S1000000x64 ((dats m 0 c).arrAt 5 cfg0.N) Facts₀.shapeCasts_S500000x128_S1000000x64 := by
  unfold Pipeline.afterTail₀
  show StableHlo.after hostOps1 _ (Proc.devRef .tc main_v19) = _
  after_results
  have e := Pipeline.withArrays_arr spec0 launch0.win.arr_inj c (V0 m c) (fun w => (dats m 0 c).arrAt w cfg0.N) 5
  show shapeCast S1000000x64 (Pipeline.withArrays spec0 c (V0 m c) (fun w => (dats m 0 c).arrAt w cfg0.N)
    (Proc.devRef .tc (Pipeline.arrRef spec0 5))) Facts₀.shapeCasts_S500000x128_S1000000x64 = _
  rw [e]

end Cert.MaskedLinear.Prefix

end
-- ==== Proof.LibPlainMatmul.lean ====
/-
  A plain matrix product read at an index, over the extended reals.

  For the dimension numbers of an ordinary product of an `R × n` matrix by an `n × k` matrix (the left operand
  contracted on its second axis, the right one on its first, no batch axis), a product accumulated into the zero
  matrix is, at row `q` and column `o`, the sum over `c : Fin n` of `A (q, c) * B (c, o)`: the zero accumulator
  contributes `0 + _`, and the contraction index, a one-axis multi-index, is re-indexed by its one coordinate.
  The statement quantifies over the well-formedness proof only, so it applies to any record with these six lists.
-/
import Idealize.ShloMosaic.PureOps.Ideal
import Idealize.ShloMosaic.PureOps.Ideal.Laws
import Idealize.ShloMosaic.Lib.ValueIdx

noncomputable section

namespace Cert.PointConv

open Idealize.ShloMosaic Idealize.ShloMosaic.ValueIdx

/-- The dimension numbers of an ordinary `R × n` by `n × k` product, for any proof that they are well formed. -/
abbrev plainDims (R n k : Nat)
    (wf : DotDims.WF (⟨2, ![R, n]⟩ : Shape) ⟨2, ![n, k]⟩ ⟨2, ![R, k]⟩ [1] [0] [0] [1] [] []) :
    DotDims (⟨2, ![R, n]⟩ : Shape) ⟨2, ![n, k]⟩ ⟨2, ![R, k]⟩ :=
  { lhsContracting := [1], rhsContracting := [0], lhsNonContracting := [0], rhsNonContracting := [1],
    lhsBatch := [], rhsBatch := [], wf := wf }

theorem plainDims_contr_rank {R n k : Nat} (wf) : (plainDims R n k wf).contr.rank = 1 := rfl

theorem plainDims_contr_size {R n k : Nat} (wf) :
    (plainDims R n k wf).contr.size ⟨0, by rw [plainDims_contr_rank]; exact Nat.one_pos⟩ = n := rfl

/-- The contraction index of such a product is one coordinate in `Fin n`. -/
abbrev plainContr {R n k : Nat} (wf) : (plainDims R n k wf).contr.Idx ≃ Fin n :=
  contrEquiv1 (plainDims R n k wf) n (plainDims_contr_rank wf) (plainDims_contr_size wf)

/-- The left operand's index at output `(q, o)` and contraction coordinate `c` is `(q, c)`. -/
theorem plainDims_lhsIdx {R n k : Nat} (wf) (q : Fin R) (o : Fin k) (c : Fin n) :
    (plainDims R n k wf).lhsIdx (ix2 q o) ((plainContr wf).symm c) = ix2 q c := by
  funext a
  apply Fin.ext
  match a with
  | ⟨0, h0⟩ =>
    unfold DotDims.lhsIdx
    rw [dif_neg (show ¬(⟨0, h0⟩ : Fin (⟨2, ![R, n]⟩ : Shape).rank) ∈ (plainDims R n k wf).lhsBatch from List.not_mem_nil),
      dif_pos (show (⟨0, h0⟩ : Fin (⟨2, ![R, n]⟩ : Shape).rank) ∈ (plainDims R n k wf).lhsNonContracting from
        List.mem_singleton.mpr rfl)]
    rfl
  | ⟨1, h1⟩ =>
    exact ((plainDims R n k wf).lhsIdx_val_of_single (cl := ⟨1, h1⟩) rfl _ _).trans
      (contrEquiv1_symm_val (plainDims R n k wf) n (plainDims_contr_rank wf) (plainDims_contr_size wf) c)

/-- The right operand's index there is `(c, o)`. -/
theorem plainDims_rhsIdx {R n k : Nat} (wf) (q : Fin R) (o : Fin k) (c : Fin n) :
    (plainDims R n k wf).rhsIdx (ix2 q o) ((plainContr wf).symm c) = ix2 c o := by
  funext a
  apply Fin.ext
  match a with
  | ⟨0, h0⟩ =>
    exact ((plainDims R n k wf).rhsIdx_val_of_single (cr := ⟨0, h0⟩) rfl _ _).trans
      (contrEquiv1_symm_val (plainDims R n k wf) n (plainDims_contr_rank wf) (plainDims_contr_size wf) c)
  | ⟨1, h1⟩ =>
    unfold DotDims.rhsIdx
    rw [dif_neg (show ¬(⟨1, h1⟩ : Fin (⟨2, ![n, k]⟩ : Shape).rank) ∈ (plainDims R n k wf).rhsBatch from List.not_mem_nil),
      dif_pos (show (⟨1, h1⟩ : Fin (⟨2, ![n, k]⟩ : Shape).rank) ∈ (plainDims R n k wf).rhsNonContracting from
        List.mem_singleton.mpr rfl)]
    rfl

/-- A product accumulated into the zero matrix, at `(q, o)`: the sum over the shared axis. -/
theorem plainMatmul_zero_apply {R n k : Nat} {φ₁ φ₂ : FTy} (wf) (prec : Option ContractPrecision)
    (A : FVec Ideal (⟨2, ![R, n]⟩ : Shape) φ₁) (B : FVec Ideal (⟨2, ![n, k]⟩ : Shape) φ₂) (q : Fin R) (o : Fin k) :
    FloatOps.matmul (plainDims R n k wf) prec A B (constant (F := Ideal) (⟨2, ![R, k]⟩ : Shape) .f32 0x00000000#32) (ix2 q o)
      = ∑ c : Fin n, A (ix2 q c) * B (ix2 c o) := by
  rw [Ideal.matmul_constant_zero_apply, ← Equiv.sum_comp (plainContr wf).symm]
  refine Finset.sum_congr rfl fun c _ => ?_
  rw [plainDims_lhsIdx, plainDims_rhsIdx]

end Cert.PointConv

end
-- ==== Proof.LibColumnForms.lean ====
/-
  A column vector read at an index.

  Summing a matrix along its rows with the summed axis kept gives a column: the sums, an `[a]` vector, are laid out as
  `[a, 1]`, and the column is then copied along a new second axis to `[a, b]`. Entry `(i, j)` of the result is
  entry `i` of the vector, whatever `j`. The two lemmas below say this one layout step at a time, every index
  written by its coordinates.
-/
import Idealize.ShloMosaic.Lib.Pipeline.Value
import Idealize.ShloMosaic.Lib.ValueIdx

namespace Cert.ColumnForms

open Idealize.ShloMosaic Idealize.ShloMosaic.ValueIdx

variable {α : Type}

/-- A vector `[a]` laid out as a column `[a, 1]` reads, at `(i, u)`, the vector at `i`: the row-major position
    `i · 1 + u` of `(i, u)` is `i`, the unit coordinate `u` being `0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` copied along its unit axis to `[a, b]` reads, at `(i, j)`, the column at `(i, 0)`: the first
    coordinate is kept (also when `a = 1`, where it is `0` anyway), the second is the unit axis's only one. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.ColumnForms
-- ==== Proof.LibRowLayout.lean ====
/-
  A vector laid out as a one-row matrix, two ways, and a one-row matrix copied down the rows.

  A bias vector of n entries meets an R×n table as a one-row matrix copied down the R rows. A kernel gets the row by a
  reshape of the vector to 1×n on the host and copies it with `vector.broadcast`; jnp gets it by a broadcast of the vector
  into dimension 1 of a 1×n matrix and a second broadcast down the rows. The two one-row matrices are the same matrix
  (`rowLayout`: entry (0, k) of either is entry k of the vector), and the kernel's copy, read at (r, k), is the row at
  (0, k) (`rowBroadcast_apply`). Stated for any entry type and any sizes; n = 1 is a bias cell met with a column.
-/
import Idealize.ShloMosaic.Lib.Pipeline.Value
import Idealize.ShloMosaic.Lib.ValueIdx

noncomputable section

namespace Idealize.ShloMosaic.RowLayout

open Idealize.ShloMosaic Idealize.ShloMosaic.ValueIdx

/-- A one-row matrix copied down R rows (a kernel's `vector.broadcast` of 1×n to R×n), read at (r, k), is the row at (0, k). -/
theorem rowBroadcast_apply {α : Type} {R n : ℕ} (x : (⟨2, ![1, n]⟩ : Shape).Idx → α)
    (h : (⟨2, ![1, n]⟩ : Shape).Broadcasts ⟨2, ![R, n]⟩) (r : Fin R) (k : Fin n) :
    broadcastTo ⟨2, ![R, n]⟩ x h (ix2 r k) = x (ix2 (0 : Fin 1) k) := by
  refine broadcastTo_apply x h (ix2 r k) (ix2 (0 : Fin 1) k) fun a => ?_
  match a with
  | ⟨0, _⟩ => rfl
  | ⟨1, _⟩ =>
    show k.val = if n = 1 then 0 else k.val
    split_ifs with hn
    · have := k.isLt; omega
    · rfl

/-- A vector of n entries broadcast into dimension 1 of a 1×n matrix, read at (z, k), is the vector at k. -/
theorem rowOfVector_apply {α : Type} {n : ℕ} (b : (⟨1, ![n]⟩ : Shape).Idx → α)
    (h : (⟨1, ![n]⟩ : Shape).BroadcastsInDim ⟨2, ![1, n]⟩ ![1]) (z : Fin 1) (k : Fin n) :
    broadcastInDim ⟨2, ![1, n]⟩ ![1] h b (ix2 z k) = b (ix1 k) := by
  refine broadcastInDim_apply ![1] h b (ix2 z k) (ix1 k) fun a => ?_
  match a with
  | ⟨0, _⟩ =>
    show k.val = if n = 1 then 0 else k.val
    split_ifs with hn
    · have := k.isLt; omega
    · rfl

/-- A vector of n entries reshaped to 1×n is the vector broadcast into dimension 1 of a 1×n matrix. -/
theorem rowLayout {α : Type} {n : ℕ} (b : (⟨1, ![n]⟩ : Shape).Idx → α) (h : (⟨1, ![n]⟩ : Shape).ShapeCasts ⟨2, ![1, n]⟩)
    (h' : (⟨1, ![n]⟩ : Shape).BroadcastsInDim ⟨2, ![1, n]⟩ ![1]) :
    shapeCast ⟨2, ![1, n]⟩ b h = broadcastInDim ⟨2, ![1, n]⟩ ![1] h' b := by
  funext j
  obtain ⟨z, k, rfl⟩ : ∃ (z : Fin 1) (k : Fin n), j = ix2 z k := ⟨j 0, j 1, eq_ix2 j⟩
  rw [rowOfVector_apply b h' z k]
  refine (shapeCast_addUnit_apply ![n] b h (ix2 z k)).trans (congrArg b (funext fun a => ?_))
  match a with
  | ⟨0, _⟩ => rfl

end Idealize.ShloMosaic.RowLayout

end
-- ==== Proof.Block.lean ====
/-
  One block of the kernel, entry by entry.

  At a grid point the body holds 4000 packed rows `X` (4000 × 128), their mask pairs `M` (4000 × 2), the matrix `V`
  (128 × 128), the doubled bias `B` and the half selector `Gs` (both 1 × 128), and stores
      X + (M₀ + Gs · (M₁ - M₀)) · (X · V + B)
  where M₀, M₁ are the two columns of `M` copied along the 128 lanes, and `B`, `Gs` are copied down the 4000 rows.
  Read at row `p`, lane `j`: the product `X · V` into the zero accumulator is the sum over the 128 packed entries,
  a column copied along the lanes reads its row's entry, a row copied down the rows reads its lane's entry.
-/
import proofs.«101948_g44169443672662_cont_sun_m_478_8_alg».proof.Proof.Gen.KernelIdeal.Skeleton
import proofs.«101948_g44169443672662_cont_sun_m_478_8_alg».proof.Proof.LibPlainMatmul
import proofs.«101948_g44169443672662_cont_sun_m_478_8_alg».proof.Proof.LibColumnForms
import proofs.«101948_g44169443672662_cont_sun_m_478_8_alg».proof.Proof.LibRowLayout
import proofs.«101948_g44169443672662_cont_sun_m_478_8_alg».proof.Proof.Spec
import Idealize.ShloMosaic.Lib.Pipeline.Value
import Idealize.ShloMosaic.Lib.ValueIdx

noncomputable section

open scoped BigOperators

namespace Cert.MaskedLinear.Block

open Idealize.ShloMosaic Idealize.ShloMosaic.ValueIdx Cert.KernelIdeal Cert.KernelIdeal.Gen

/-- The first column of the mask pairs cut out as a 4000 × 1 column, read at row `p`. -/
theorem maskColumn0_apply (mm : FVec Ideal S4000x2 .f32) (h : S4000x2.Slices ![0, 0] S4000x1) (p : Fin 4000) :
    extractStridedSlice S4000x1 ![0, 0] mm h (ix2 p (0 : Fin 1)) = mm (ix2 p (0 : Fin 2)) := by
  refine extractStridedSlice_apply _ mm h _ (ix2 p (0 : Fin 2)) fun a => ?_
  match a with
  | ⟨0, _⟩ => show p.val = 0 + p.val; omega
  | ⟨1, _⟩ => rfl

/-- The second column, read at row `p`. -/
theorem maskColumn1_apply (mm : FVec Ideal S4000x2 .f32) (h : S4000x2.Slices ![0, 1] S4000x1) (p : Fin 4000) :
    extractStridedSlice S4000x1 ![0, 1] mm h (ix2 p (0 : Fin 1)) = mm (ix2 p (1 : Fin 2)) := by
  refine extractStridedSlice_apply _ mm h _ (ix2 p (1 : Fin 2)) fun a => ?_
  match a with
  | ⟨0, _⟩ => show p.val = 0 + p.val; omega
  | ⟨1, _⟩ => rfl

/-- THE BLOCK AT AN ENTRY: the body's stored value at row `p`, lane `j`. -/
theorem pay_apply [Cert.KernelIdeal.Facts] (x0 : Vec Ideal S4000x128 .f32) (v : Vec Ideal S128x128 .f32) (bb : Vec Ideal S1x128 .f32)
    (mm : Vec Ideal S4000x2 .f32) (gg : Vec Ideal S1x128 .f32) (p : Fin 4000) (j : Fin 128) :
    k0_pay1 (F := Ideal) x0 v bb mm gg (ix2 p j)
      = x0 (ix2 p j) + (mm (ix2 p (0 : Fin 2)) + gg (ix2 (0 : Fin 1) j) * (mm (ix2 p (1 : Fin 2)) - mm (ix2 p (0 : Fin 2)))) *
          ((∑ c : Fin 128, x0 (ix2 p c) * v (ix2 c j)) + bb (ix2 (0 : Fin 1) j)) := by
  unfold k0_pay1
  simp only [shapeCast_self]
  simp only [addf_apply, mulf_apply, subf_apply, Cert.ColumnForms.broadcastTo_a1_ab_apply, RowLayout.rowBroadcast_apply,
    maskColumn0_apply, maskColumn1_apply]
  have hmm := Cert.PointConv.plainMatmul_zero_apply (R := 4000) (n := 128) (k := 128) (φ₁ := .f32) (φ₂ := .f32)
    Facts₀.dot_S4000x128_S128x128_S4000x128_1_0_0_1_n_n_wf none x0 v p j
  rw [← hmm]
  rfl

/-- A BLOCK OF THE PACKED ARRAYS: when the block's rows are rows `R₀ + p` of the packed input and of the mask pairs, and the
    matrix, the bias row and the selector row are the whole arrays, the stored value at row `p`, lane `j` is the packed
    formula at row `R`, lane `j` of the whole arrays. -/
theorem pay_eq_packedAt [Cert.KernelIdeal.Facts]
    (X2 : (⟨2, ![500000, 128]⟩ : Shape).Idx → EReal) (M2 : (⟨2, ![500000, 2]⟩ : Shape).Idx → EReal)
    (VM : (⟨2, ![128, 128]⟩ : Shape).Idx → EReal) (B2 GS : (⟨2, ![1, 128]⟩ : Shape).Idx → EReal)
    (x0 : Vec Ideal S4000x128 .f32) (v : Vec Ideal S128x128 .f32) (bb : Vec Ideal S1x128 .f32)
    (mm : Vec Ideal S4000x2 .f32) (gg : Vec Ideal S1x128 .f32) (R : Fin 500000) (p : Fin 4000) (j : Fin 128)
    (h0 : ∀ j' : Fin 128, x0 (ix2 p j') = X2 (ix2 R j')) (h1 : ∀ e : Fin 2, mm (ix2 p e) = M2 (ix2 R e))
    (h2 : ∀ a b : Fin 128, v (ix2 a b) = VM (ix2 a b)) (h3 : ∀ j' : Fin 128, bb (ix2 (0 : Fin 1) j') = B2 (ix2 (0 : Fin 1) j'))
    (h4 : ∀ j' : Fin 128, gg (ix2 (0 : Fin 1) j') = GS (ix2 (0 : Fin 1) j')) :
    k0_pay1 (F := Ideal) x0 v bb mm gg (ix2 p j) = Cert.MaskedLinear.packedAt X2 M2 VM B2 GS R j := by
  rw [pay_apply]
  unfold Cert.MaskedLinear.packedAt
  simp only [h0, h1, h2, h3, h4]

end Cert.MaskedLinear.Block

end
-- ==== Proof.Tiles.lean ====
/-
  From the blocks to the whole packed result.

  The grid has 125 points; point `t` works on packed rows 4000·t … 4000·t + 3999: its block of the packed input and of the mask
  pairs are those rows, the matrix, the bias row and the selector row are whole at every point, and it writes back those rows
  of the result.  What it writes at row `p`, lane `j` of its block is the packed formula at row 4000·t + p, lane `j` of the
  whole arrays (`written_eq`), the 125 blocks cover all 500000 rows (`covered`), and so the result array after the run is
  the packed formula of the whole arrays at every entry (`result_eq`).
-/
import proofs.«101948_g44169443672662_cont_sun_m_478_8_alg».proof.Proof.Gen.KernelIdeal.Frame
import proofs.«101948_g44169443672662_cont_sun_m_478_8_alg».proof.Proof.Spec
import proofs.«101948_g44169443672662_cont_sun_m_478_8_alg».proof.Proof.Block
import Idealize.ShloMosaic.Lib.Pipeline.Value
import Idealize.ShloMosaic.Lib.ValueIdx

set_option maxRecDepth 16384

noncomputable section

namespace Cert.MaskedLinear.Tiles

open Idealize.ShloMosaic Idealize.ShloMosaic.TcCoe Idealize.SL.Sem Idealize.ShloMosaic.ValueIdx
open Cert.KernelIdeal Cert.KernelIdeal.Gen
open Idealize.ShloMosaic.Pipeline (Dat)

variable (m : (ℓ : Loc nD τ sig) → Buf (Elt Ideal) ℓ)

theorem hz : (![0, 0] : Fin 2 → Nat) = fun _ => 0 := funext fun a => by fin_cases a <;> rfl

/-- The packed formula as an array over the packed shape. -/
def packedArr (x2 : S500000x128.Idx → EReal) (m2 : S500000x2.Idx → EReal) (vm : S128x128.Idx → EReal)
    (b2 gs : S1x128.Idx → EReal) : S500000x128.Idx → EReal :=
  fun i => Cert.MaskedLinear.packedAt x2 m2 vm b2 gs (i 0) (i 1)

/-- Which block each window holds at point `t`: the input, the mask pairs and the result move with the point along the
    rows; the matrix, the bias row and the selector row stay. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem t_lt (t : Fin cfg0.N) : t.val < 125 := by
  have h1 := t.isLt
  have h2 : cfg0.N = 125 := N_0
  omega

/-- Row `p` of point `t`'s block is packed row 4000·t + p. -/
def rowAt (t : Fin cfg0.N) (p : Fin 4000) : Fin 500000 := ⟨t.val * 4000 + p.val, by have := t_lt t; omega⟩

/-- The packed input's block at point `t`. -/
theorem rd0 (c : Dev nD) (t : Fin cfg0.N) (p : Fin 4000) (j : Fin 128) :
    iblk m c 0 t (ix2 p j) = (V m c main_v0 : S500000x128.Idx → EReal) (ix2 (rowAt t p) j) := by
  obtain ⟨e00, e01, -⟩ := idx_facts t
  show V m c main_v0 (((cfg0.win 0).blk t).view.emb (ix2 p j)) = V m c main_v0 (ix2 (rowAt t p) j)
  refine congrArg (V m c main_v0) (funext fun a => Fin.ext ?_)
  match a with
  | ⟨0, _⟩ => show win0_0.index t (0 : Fin 2) * 4000 + 1 * p.val = t.val * 4000 + p.val; omega
  | ⟨1, _⟩ => show win0_0.index t (1 : Fin 2) * 128 + 1 * j.val = j.val; omega

/-- The mask pairs' block at point `t`. -/
theorem rd1 (c : Dev nD) (t : Fin cfg0.N) (p : Fin 4000) (e : Fin 2) :
    iblk m c 1 t (ix2 p e) = (V m c main_v2 : S500000x2.Idx → EReal) (ix2 (rowAt t p) e) := by
  obtain ⟨-, -, e10, e11, -⟩ := idx_facts t
  show V m c main_v2 (((cfg0.win 1).blk t).view.emb (ix2 p e)) = V m c main_v2 (ix2 (rowAt t p) e)
  refine congrArg (V m c main_v2) (funext fun a => Fin.ext ?_)
  match a with
  | ⟨0, _⟩ => show win0_1.index t (0 : Fin 2) * 4000 + 1 * p.val = t.val * 4000 + p.val; omega
  | ⟨1, _⟩ => show win0_1.index t (1 : Fin 2) * 2 + 1 * e.val = e.val; omega

/-- The matrix is whole at every point. -/
theorem rd2 (c : Dev nD) (t : Fin cfg0.N) (a b : Fin 128) :
    iblk m c 2 t (ix2 a b) = (V m c main_v11 : S128x128.Idx → EReal) (ix2 a b) := by
  obtain ⟨-, -, -, -, e20, e21, -⟩ := idx_facts t
  show V m c main_v11 (((cfg0.win 2).blk t).view.emb (ix2 a b)) = V m c main_v11 (ix2 a b)
  refine congrArg (V m c main_v11) (funext fun d => Fin.ext ?_)
  match d with
  | ⟨0, _⟩ => show win0_2.index t (0 : Fin 2) * 128 + 1 * a.val = a.val; omega
  | ⟨1, _⟩ => show win0_2.index t (1 : Fin 2) * 128 + 1 * b.val = b.val; omega

/-- The bias row is whole at every point. -/
theorem rd3 (c : Dev nD) (t : Fin cfg0.N) (z : Fin 1) (j : Fin 128) :
    iblk m c 3 t (ix2 z j) = (V m c main_v13 : S1x128.Idx → EReal) (ix2 z j) := by
  obtain ⟨-, -, -, -, -, -, e30, e31, -⟩ := idx_facts t
  show V m c main_v13 (((cfg0.win 3).blk t).view.emb (ix2 z j)) = V m c main_v13 (ix2 z j)
  refine congrArg (V m c main_v13) (funext fun d => Fin.ext ?_)
  match d with
  | ⟨0, _⟩ => show win0_3.index t (0 : Fin 2) * 1 + 1 * z.val = z.val; omega
  | ⟨1, _⟩ => show win0_3.index t (1 : Fin 2) * 128 + 1 * j.val = j.val; omega

/-- The selector row is whole at every point. -/
theorem rd4 (c : Dev nD) (t : Fin cfg0.N) (z : Fin 1) (j : Fin 128) :
    iblk m c 4 t (ix2 z j) = (V m c main_v17 : S1x128.Idx → EReal) (ix2 z j) := by
  obtain ⟨-, -, -, -, -, -, -, -, e40, e41, -⟩ := idx_facts t
  show V m c main_v17 (((cfg0.win 4).blk t).view.emb (ix2 z j)) = V m c main_v17 (ix2 z j)
  refine congrArg (V m c main_v17) (funext fun d => Fin.ext ?_)
  match d with
  | ⟨0, _⟩ => show win0_4.index t (0 : Fin 2) * 1 + 1 * z.val = z.val; omega
  | ⟨1, _⟩ => show win0_4.index t (1 : Fin 2) * 128 + 1 * j.val = j.val; omega

/-- WHAT POINT `t` WRITES BACK is its block of the packed formula of the arrays as the kernel finds them. -/
theorem written_eq (c : Dev nD) (t : Fin cfg0.N) :
    (dats m 0 c).flushed 5 t = ((cfg0.win 5).blk t).view.read (Elt Ideal)
      (packedArr (V m c main_v0) (V m c main_v2) (V m c main_v11) (V m c main_v13) (V m c main_v17)) := by
  show (cfg0.win 5).cut (grid0.coords t) ((dats m 0 c).after 5 t) = _
  rw [after0_5]
  unfold out0_5
  rw [View.canon_unit_zero hz]
  simp only [View.ld_unit_zero (S := S4000x128) hz, View.ld_unit_zero (S := S128x128) hz,
    View.ld_unit_zero (S := S1x128) hz, View.ld_unit_zero (S := S4000x2) hz]
  obtain ⟨-, -, -, -, -, -, -, -, -, -, e50, e51⟩ := idx_facts t
  funext y
  obtain ⟨p, j, rfl⟩ : ∃ (p : Fin 4000) (j : Fin 128), y = ix2 p j := ⟨y 0, y 1, eq_ix2 y⟩
  show k0_pay1 (F := Ideal) (iblk m c 0 t) (iblk m c 2 t) (iblk m c 3 t) (iblk m c 1 t) (iblk m c 4 t) (ix2 p j)
    = packedArr (V m c main_v0) (V m c main_v2) (V m c main_v11) (V m c main_v13) (V m c main_v17)
        (((cfg0.win 5).blk t).view.emb (ix2 p j))
  refine (Block.pay_eq_packedAt (V m c main_v0) (V m c main_v2) (V m c main_v11) (V m c main_v13) (V m c main_v17)
    (iblk m c 0 t) (iblk m c 2 t) (iblk m c 3 t) (iblk m c 1 t) (iblk m c 4 t) (rowAt t p) p j
    (fun j' => rd0 m c t p j') (fun e => rd1 m c t p e) (fun a b => rd2 m c t a b) (fun j' => rd3 m c t 0 j')
    (fun j' => rd4 m c t 0 j')).trans ?_
  have eR : (((cfg0.win 5).blk t).view.emb (ix2 p j)) 0 = rowAt t p :=
    Fin.ext (by show win0_5.index t (0 : Fin 2) * 4000 + 1 * p.val = t.val * 4000 + p.val; omega)
  have ej : (((cfg0.win 5).blk t).view.emb (ix2 p j)) 1 = j :=
    Fin.ext (by show win0_5.index t (1 : Fin 2) * 128 + 1 * j.val = j.val; omega)
  unfold packedArr
  rw [eR, ej]

/-- An index of the result array is in point `t`'s block iff each coordinate is in the block's range on its axis. -/
theorem mem_blk (t : Fin cfg0.N) (i : S500000x128.Idx) :
    i ∈ ((cfg0.win 5).blk t).view.set ↔ ∀ a : Fin 2, win0_5.index t a * S4000x128.size a ≤ (i a).val ∧ (i a).val < win0_5.index t a * S4000x128.size a + S4000x128.size a := by
  show i ∈ ((View.whole main_v18).slice (win0_5.rect t)).set ↔ _
  rw [View.set_slice_whole, Rect.mem_set_unit]
  exact Iff.rfl

/-- Every entry of the result lies in the block of the point that owns its row: point ⌊row / 4000⌋. -/
theorem covered (i : S500000x128.Idx) : ∃ t : Fin cfg0.N, (cfg0.win 5).flush t = true ∧ i ∈ ((cfg0.win 5).blk t).view.set := by
  have hi0 : (i 0).val < 500000 := (i 0).isLt
  have hi1 : (i 1).val < 128 := (i 1).isLt
  have hN : cfg0.N = 125 := N_0
  let t : Fin cfg0.N := ⟨(i 0).val / 4000, by rw [hN]; omega⟩
  obtain ⟨-, -, -, -, -, -, -, -, -, -, e50, e51⟩ := idx_facts t
  have ht : t.val = (i 0).val / 4000 := rfl
  refine ⟨t, flush0_5 t, ?_⟩
  rw [mem_blk]
  intro a
  match a with
  | ⟨0, _⟩ => show win0_5.index t (0 : Fin 2) * 4000 ≤ (i 0).val ∧ (i 0).val < win0_5.index t (0 : Fin 2) * 4000 + 4000; omega
  | ⟨1, _⟩ => show win0_5.index t (1 : Fin 2) * 128 ≤ (i 1).val ∧ (i 1).val < win0_5.index t (1 : Fin 2) * 128 + 128; omega

/-- THE RESULT ARRAY after the run is the packed formula of the arrays as the kernel finds them. -/
theorem result_eq (c : Dev nD) :
    (dats m 0 c).arrAt 5 cfg0.N
      = packedArr (V m c main_v0) (V m c main_v2) (V m c main_v11) (V m c main_v13) (V m c main_v17) :=
  (dats m 0 c).arrAt_eq_of_cover 5 _ (fun t _ => written_eq m c t) covered

end Cert.MaskedLinear.Tiles

end
-- ==== Proof.HostReads.lean ====
/-
  The arrays the kernel is launched on, read at one entry.

  The host lays the four arguments out again before the kernel runs, and each of the resulting arrays has a plain description
  entry by entry.  Write (h, k), with h in {0, 1} and k below 64, for position 64·h + k of a row of 128.

  * The packed input: reading 1000000 rows of 64 as 500000 rows of 128 keeps every entry at its position in row-major order,
    and (2r + h)·64 + k = r·128 + (64·h + k); so entry (h, k) of packed row r is entry k of row 2r + h (`packX_apply`).
  * The packed mask: likewise (2r + h) = r·2 + h, and a mask bit becomes the number 0 or 1 it encodes (`packM_apply`).
  * The block matrix: two rows of blocks, [W 0] over [0 W], joined along the rows; each row of blocks is two 64 by 64 blocks
    joined along the columns.  A join of two pieces reads the first piece where the coordinate along the join is below the
    first piece's extent 64 and the second piece, 64 positions earlier, otherwise.  So the entry at ((hc, k), (hj, o)) is
    W (k, o) when hc = hj and 0 otherwise (`blockDiag_same`, `blockDiag_other`).
  * The identity: the entry at (a, c) is the number of the bit "a + 0 = c", the positions taken as 32-bit words; positions
    below 128 are distinct as words exactly when they are distinct, so it is 1 when a = c and 0 otherwise (`eye128_apply`).
    Positions (h, k) and (h, o) agree exactly when k = o, and positions in different halves never agree.  The matrix the
    kernel contracts with is the difference of the two (`matV_same`, `matV_other`).
  * The doubled bias and the half selector: a join of two vectors of 64 read as one row of 128; the bias twice
    (`bias2_apply`), and 64 copies of the number 0 followed by 64 copies of the number 1 (`halfSel_lo`, `halfSel_hi`).
-/
import proofs.«101948_g44169443672662_cont_sun_m_478_8_alg».proof.Proof.HostForms
import proofs.«101948_g44169443672662_cont_sun_m_478_8_alg».proof.Proof.Spec
import Idealize.ShloMosaic.Lib.Pipeline.Value
import Idealize.ShloMosaic.Lib.ValueIdx
import Idealize.ShloMosaic.Lib.IdealHost
import Idealize.ShloMosaic.PureOps.Ideal.Laws

noncomputable section

namespace Cert.MaskedLinear.HostReads

open Idealize.ShloMosaic Idealize.ShloMosaic.ValueIdx Cert.KernelIdeal Cert.MaskedLinear Cert.MaskedLinear.HostForms
open Cert.KernelIdeal.Facts₀

variable [Cert.KernelIdeal.Facts]

/-- A number below 2 is 0 or 1. -/
theorem fin2_cases (h : Fin 2) : h = 0 ∨ h = 1 := by
  have : h.val = 0 ∨ h.val = 1 := by omega
  rcases this with e | e
  · exact Or.inl (Fin.ext e)
  · exact Or.inr (Fin.ext e)

/-- Entry (h, k) of packed row r is entry k of row 2r + h: both sit at the same row-major position. -/
theorem packX_apply (x : FVec Ideal S1000000x64 .f32) (r : Fin 500000) (h : Fin 2) (k : Fin 64) :
    packX x (ix2 r (pk h k)) = x (ix2 (row2 r h) k) := by
  unfold packX
  refine shapeCast_apply x _ _ (ix2 (row2 r h) k) ?_
  rw [Shape.rowMajor_val_two, Shape.rowMajor_val_two]
  show (row2 r h).val * 64 + k.val = r.val * 128 + (pk h k).val
  simp only [pk_val, row2_val]; omega

/-- Entry h of packed mask row r is the mask bit of row 2r + h as the number 0 or 1. -/
theorem packM_apply (mask : IVec S1000000 1) (r : Fin 500000) (h : Fin 2) :
    packM mask (ix2 r h) = (((mask (ix1 (row2 r h))).toNat : ℝ) : EReal) := by
  unfold packM
  refine (shapeCast_apply _ _ _ (ix1 (row2 r h)) ?_).trans rfl
  rw [Shape.rowMajor_val_one, Shape.rowMajor_val_two]
  show (row2 r h).val = r.val * 2 + h.val
  simp only [row2_val]; omega

/-- The zero block is 0 at every entry. -/
theorem zeros64_apply (i : S64x64.Idx) : zeros64 i = 0 := by
  unfold zeros64
  rw [broadcastInDim_scalar_apply, constant_apply, Ideal.ofBits_zero_f32]

/-- Two blocks joined along the columns, read in the first half of a row: the first block. -/
theorem cat_cols_lo (A B : FVec Ideal S64x64 .f32) (k o : Fin 64) :
    concatenate S64x128 1 [⟨S64x64, A⟩, ⟨S64x64, B⟩] concatenates_S64x64_S64x64_S64x128_d1 (ix2 k (pk 0 o))
      = A (ix2 k o) := by
  refine concatenate_pair_apply_left (t := S64x128) 1 A B concatenates_S64x64_S64x64_S64x128_d1 (ix2 k (pk 0 o)) rfl (ix2 k o) fun b => ?_
  match b with
  | ⟨0, _⟩ => rfl
  | ⟨1, _⟩ => show o.val = (pk 0 o).val; simp only [pk_val]; omega

/-- Two blocks joined along the columns, read in the second half of a row: the second block, 64 columns earlier. -/
theorem cat_cols_hi (A B : FVec Ideal S64x64 .f32) (k o : Fin 64) :
    concatenate S64x128 1 [⟨S64x64, A⟩, ⟨S64x64, B⟩] concatenates_S64x64_S64x64_S64x128_d1 (ix2 k (pk 1 o))
      = B (ix2 k o) := by
  refine concatenate_pair_apply_right (t := S64x128) 1 A B concatenates_S64x64_S64x64_S64x128_d1 (ix2 k (pk 1 o)) rfl rfl (ix2 k o) (fun b hb => ?_) ?_
  · match b with
    | ⟨0, _⟩ => rfl
    | ⟨1, _⟩ => exact absurd rfl hb
  · show o.val + 64 = (pk 1 o).val; simp only [pk_val]; omega

/-- Two rows of blocks joined along the rows, read in the first 64 rows: the first piece. -/
theorem cat_rows_lo (P Q : FVec Ideal S64x128 .f32) (k : Fin 64) (j : Fin 128) :
    concatenate S128x128 0 [⟨S64x128, P⟩, ⟨S64x128, Q⟩] concatenates_S64x128_S64x128_S128x128_d0 (ix2 (pk 0 k) j)
      = P (ix2 k j) := by
  refine concatenate_pair_apply_left (t := S128x128) 0 P Q concatenates_S64x128_S64x128_S128x128_d0 (ix2 (pk 0 k) j) rfl (ix2 k j) fun b => ?_
  match b with
  | ⟨0, _⟩ => show k.val = (pk 0 k).val; simp only [pk_val]; omega
  | ⟨1, _⟩ => rfl

/-- Two rows of blocks joined along the rows, read in the last 64 rows: the second piece, 64 rows earlier. -/
theorem cat_rows_hi (P Q : FVec Ideal S64x128 .f32) (k : Fin 64) (j : Fin 128) :
    concatenate S128x128 0 [⟨S64x128, P⟩, ⟨S64x128, Q⟩] concatenates_S64x128_S64x128_S128x128_d0 (ix2 (pk 1 k) j)
      = Q (ix2 k j) := by
  refine concatenate_pair_apply_right (t := S128x128) 0 P Q concatenates_S64x128_S64x128_S128x128_d0 (ix2 (pk 1 k) j) rfl rfl (ix2 k j) (fun b hb => ?_) ?_
  · match b with
    | ⟨0, _⟩ => exact absurd rfl hb
    | ⟨1, _⟩ => rfl
  · show k.val + 64 = (pk 1 k).val; simp only [pk_val]; omega

/-- Two vectors of 64 joined, read in the first half: the first vector. -/
theorem cat_vec_lo (u v : FVec Ideal S64 .f32) (o : Fin 64) :
    concatenate S128 0 [⟨S64, u⟩, ⟨S64, v⟩] concatenates_S64_S64_S128_d0 (ix1 (pk 0 o)) = u (ix1 o) := by
  refine concatenate_pair_apply_left (t := S128) 0 u v concatenates_S64_S64_S128_d0 (ix1 (pk 0 o)) rfl (ix1 o) fun b => ?_
  match b with
  | ⟨0, _⟩ => show o.val = (pk 0 o).val; simp only [pk_val]; omega

/-- Two vectors of 64 joined, read in the second half: the second vector, 64 places earlier. -/
theorem cat_vec_hi (u v : FVec Ideal S64 .f32) (o : Fin 64) :
    concatenate S128 0 [⟨S64, u⟩, ⟨S64, v⟩] concatenates_S64_S64_S128_d0 (ix1 (pk 1 o)) = v (ix1 o) := by
  refine concatenate_pair_apply_right (t := S128) 0 u v concatenates_S64_S64_S128_d0 (ix1 (pk 1 o)) rfl rfl (ix1 o) (fun b hb => ?_) ?_
  · match b with
    | ⟨0, _⟩ => exact absurd rfl hb
  · show o.val + 64 = (pk 1 o).val; simp only [pk_val]; omega

/-- On the diagonal blocks the block matrix is `W`. -/
theorem blockDiag_same (W : FVec Ideal S64x64 .f32) (h : Fin 2) (k o : Fin 64) :
    blockDiag W (ix2 (pk h k) (pk h o)) = W (ix2 k o) := by
  unfold blockDiag
  rcases fin2_cases h with rfl | rfl
  · rw [cat_rows_lo, cat_cols_lo]
  · rw [cat_rows_hi, cat_cols_hi]

/-- Off the diagonal blocks the block matrix is 0. -/
theorem blockDiag_other (W : FVec Ideal S64x64 .f32) (hc hj : Fin 2) (k o : Fin 64) (hne : hc ≠ hj) :
    blockDiag W (ix2 (pk hc k) (pk hj o)) = 0 := by
  unfold blockDiag
  rcases fin2_cases hc with rfl | rfl <;> rcases fin2_cases hj with rfl | rfl
  · exact absurd rfl hne
  · rw [cat_rows_lo, cat_cols_hi, zeros64_apply]
  · rw [cat_rows_hi, cat_cols_lo, zeros64_apply]
  · exact absurd rfl hne

/-- The identity matrix: 1 where the row and column positions agree, 0 elsewhere. Two positions below 128 are the same
    32-bit word only when they are the same position. -/
theorem eye128_apply (a c : Fin 128) : eye128 (ix2 a c) = ((if a = c then (1 : ℝ) else 0 : ℝ) : EReal) := by
  unfold eye128
  show ((((IntOp.cmpi .eq (IntOp.addi (iotaInDim S128x128 32 0 (ix2 a c))
      (broadcastInDim S128x128 ![] bcast_S_S128x128 (constantI S_ 32 0#32) (ix2 a c)))
      (iotaInDim S128x128 32 1 (ix2 a c))).toNat : ℝ)) : EReal) = _
  rw [iotaInDim_apply, iotaInDim_apply, broadcastInDim_scalar_apply]
  show ((((IntOp.cmpi .eq (IntOp.addi (BitVec.ofNat 32 a.val) 0#32) (BitVec.ofNat 32 c.val)).toNat : ℝ)) : EReal) = _
  by_cases hac : a = c
  · subst hac
    rw [if_pos rfl]
    simp [IntOp.cmpi, IntOp.addi]
  · rw [if_neg hac]
    have hne : BitVec.ofNat 32 a.val ≠ BitVec.ofNat 32 c.val := by
      intro heq
      have h1 := congrArg BitVec.toNat heq
      have ha := a.isLt
      have hc := c.isLt
      simp at h1
      exact hac (Fin.ext (by omega))
    simp [IntOp.cmpi, IntOp.addi, hne]

/-- Positions (h, k) and (h, o) of a row of 128 agree exactly when k = o. -/
theorem pk_eq_iff (h : Fin 2) (k o : Fin 64) : pk h k = pk h o ↔ k = o := by
  constructor
  · intro e
    have := congrArg Fin.val e
    simp only [pk_val] at this
    exact Fin.ext (by omega)
  · rintro rfl; rfl

/-- Positions in different halves of a row of 128 differ. -/
theorem pk_ne (hc hj : Fin 2) (k o : Fin 64) (hne : hc ≠ hj) : pk hc k ≠ pk hj o := by
  intro e
  have := congrArg Fin.val e
  simp only [pk_val] at this
  have h1 := k.isLt
  have h2 := o.isLt
  exact hne (Fin.ext (by omega))

/-- On the diagonal blocks the matrix the kernel contracts with is `W` minus the 64 by 64 identity. -/
theorem matV_same (W : FVec Ideal S64x64 .f32) (h : Fin 2) (k o : Fin 64) :
    matV W (ix2 (pk h k) (pk h o)) = W (ix2 k o) - ((if k = o then (1 : ℝ) else 0 : ℝ) : EReal) := by
  unfold matV
  rw [subf_apply, blockDiag_same, eye128_apply, if_congr (pk_eq_iff h k o) rfl rfl]

/-- Off the diagonal blocks it is 0 - 0. -/
theorem matV_other (W : FVec Ideal S64x64 .f32) (hc hj : Fin 2) (k o : Fin 64) (hne : hc ≠ hj) :
    matV W (ix2 (pk hc k) (pk hj o)) = 0 - 0 := by
  unfold matV
  rw [subf_apply, blockDiag_other W hc hj k o hne, eye128_apply, if_neg (pk_ne hc hj k o hne), EReal.coe_zero]

/-- A vector of 128 read as one row of 128: the row's entry j is the vector's entry j. -/
theorem row_of_vec (v : FVec Ideal S128 .f32) (j : Fin 128) :
    shapeCast S1x128 v shapeCasts_S128_S1x128 (ix2 (0 : Fin 1) j) = v (ix1 j) := by
  refine shapeCast_apply v _ _ (ix1 j) ?_
  rw [Shape.rowMajor_val_one, Shape.rowMajor_val_two]
  show j.val = (0 : Fin 1).val * 128 + j.val
  simp

/-- The doubled bias holds the bias entry o at position (h, o), in either half. -/
theorem bias2_apply (b : FVec Ideal S64 .f32) (h : Fin 2) (o : Fin 64) :
    bias2 b (ix2 (0 : Fin 1) (pk h o)) = b (ix1 o) := by
  unfold bias2
  rw [row_of_vec]
  rcases fin2_cases h with rfl | rfl
  · rw [cat_vec_lo]
  · rw [cat_vec_hi]

/-- The half selector is 0 on the first half of the row. -/
theorem halfSel_lo (o : Fin 64) : halfSel (ix2 (0 : Fin 1) (pk 0 o)) = 0 := by
  unfold halfSel
  rw [row_of_vec, cat_vec_lo, broadcastInDim_scalar_apply, constant_apply, Ideal.ofBits_zero_f32]

/-- The half selector is 1 on the second half of the row. -/
theorem halfSel_hi (o : Fin 64) : halfSel (ix2 (0 : Fin 1) (pk 1 o)) = 1 := by
  unfold halfSel
  rw [row_of_vec, cat_vec_hi, broadcastInDim_scalar_apply, constant_apply, Ideal.ofBits_one_f32]

end Cert.MaskedLinear.HostReads
-- ==== Proof.KernelValue.lean ====
/-
  The kernel's result, entry by entry, is the reference's.

  The program returns the kernel's packed result read as 1000000 rows of 64: entry `o` of row `2r + h` is entry `64h + o` of
  packed row `r` (the same position when the entries are counted row by row).  There the packed formula of the host's re-laid
  arguments is, for real entries, the masked linear layer of the arguments themselves (the specification's
  `packed_eq_masked`, whose hypotheses are the host arrays read at an index).
-/
import proofs.«101948_g44169443672662_cont_sun_m_478_8_alg».proof.Proof.Spec
import proofs.«101948_g44169443672662_cont_sun_m_478_8_alg».proof.Proof.HostForms
import proofs.«101948_g44169443672662_cont_sun_m_478_8_alg».proof.Proof.HostReads
import proofs.«101948_g44169443672662_cont_sun_m_478_8_alg».proof.Proof.Tiles
import Idealize.ShloMosaic.Lib.Pipeline.Value
import Idealize.ShloMosaic.Lib.ValueIdx

noncomputable section

namespace Cert.MaskedLinear.KernelValue

open Idealize.ShloMosaic Idealize.ShloMosaic.ValueIdx Cert.KernelIdeal
open Cert.MaskedLinear Cert.MaskedLinear.HostForms Cert.MaskedLinear.HostReads Cert.MaskedLinear.Tiles
open Cert.KernelIdeal.Facts₀

variable [Cert.KernelIdeal.Facts]

/-- For real entries, the packed formula of the re-laid arguments, read as 1000000 rows of 64, is the masked linear layer. -/
theorem unpacked_eq (x : FVec Ideal S1000000x64 .f32) (mask : IVec S1000000 1) (W : FVec Ideal S64x64 .f32)
    (b : FVec Ideal S64 .f32) (hx : ∀ i, ∃ t : ℝ, x i = t) (hW : ∀ i, ∃ t : ℝ, W i = t) (hb : ∀ i, ∃ t : ℝ, b i = t) :
    shapeCast S1000000x64 (packedArr (packX x) (packM mask) (matV W) (bias2 b) halfSel)
        Facts₀.shapeCasts_S500000x128_S1000000x64
      = fun i => maskedAt x mask W b (i 0) (i 1) := by
  funext i
  obtain ⟨R, o, rfl⟩ : ∃ (R : Fin 1000000) (o : Fin 64), i = ix2 R o := ⟨i 0, i 1, eq_ix2 i⟩
  obtain ⟨r, h, rfl⟩ := exists_row2 R
  refine (shapeCast_apply _ Facts₀.shapeCasts_S500000x128_S1000000x64 (ix2 (row2 r h) o) (ix2 r (pk h o)) ?_).trans ?_
  · rw [Shape.rowMajor_val_two, Shape.rowMajor_val_two]
    show r.val * 128 + (pk h o).val = (row2 r h).val * 64 + o.val
    simp only [pk_val, row2_val]
    omega
  · exact packed_eq_masked x mask W b hx hW hb _ _ _ _ _ (packX_apply x) (packM_apply mask) (matV_same W) (matV_other W)
      (bias2_apply b) halfSel_lo halfSel_hi r h o

end Cert.MaskedLinear.KernelValue

end
-- ==== Proof.lean ====
/-
  A linear layer applied to the masked rows, two rows per packed row: the kernel against its reference.

  The reference maps the input x (1000000 rows of 64), the mask (a bit per row), the weight W (64 × 64) and the bias b (64) to
  the array whose row R is x_R · W + b where the mask bit of R is set and x_R where it is not.  The kernel reads x as 500000
  packed rows of 128 (rows 2r and 2r+1 side by side), forms V = blockdiag(W, W) - I, the bias twice, the mask bits of a packed
  row's two rows as the numbers m₀, m₁, and a selector g that is 0 on the first 64 lanes and 1 on the last 64, and computes
      out = x + (m₀ + g · (m₁ - m₀)) · (x · V + [b b])
  on blocks of 4000 packed rows at each of 125 grid points; the program returns the packed result read as 1000000 rows of 64.
  On extended reals with real entries the two agree: V is block diagonal, so the contraction over a packed row's 128 entries is
  the contraction of each row with W - I on its own half, that is x_R · W - x_R; the coefficient is the row's own mask bit; and
  x_R + m · ((x_R · W - x_R) + b) is x_R · W + b for m = 1 and x_R for m = 0.  The step x · (W - I) = x · W - x needs real
  entries, which the precondition (every float input finite) gives.

  The modules: Spec (the arithmetic above, over abstract arrays), Finite (the precondition makes every entry real), RefRead
  (the reference's result read at an entry), HostForms and HostReads (the host's re-laid arguments and their entries), Block
  (one block of the kernel at an entry), Tiles (the 125 blocks make the whole packed result), Prefix (what the kernel finds,
  what the program returns), KernelValue (the returned array is the reference's function).  Here: the three frames, the
  idealization's ledger (empty), and the two runs side by side.
-/
import proofs.«101948_g44169443672662_cont_sun_m_478_8_alg».proof.Defs
import proofs.«101948_g44169443672662_cont_sun_m_478_8_alg».proof.Proof.Gen.Kernel
import proofs.«101948_g44169443672662_cont_sun_m_478_8_alg».proof.Proof.Gen.Kernel.Skeleton
import proofs.«101948_g44169443672662_cont_sun_m_478_8_alg».proof.Proof.Gen.Kernel.Launch
import proofs.«101948_g44169443672662_cont_sun_m_478_8_alg».proof.Proof.Gen.Kernel.Points
import proofs.«101948_g44169443672662_cont_sun_m_478_8_alg».proof.Proof.Gen.Kernel.Frame
import proofs.«101948_g44169443672662_cont_sun_m_478_8_alg».proof.Proof.Gen.KernelIdeal
import proofs.«101948_g44169443672662_cont_sun_m_478_8_alg».proof.Proof.Gen.KernelIdeal.Skeleton
import proofs.«101948_g44169443672662_cont_sun_m_478_8_alg».proof.Proof.Gen.KernelIdeal.Launch
import proofs.«101948_g44169443672662_cont_sun_m_478_8_alg».proof.Proof.Gen.KernelIdeal.Points
import proofs.«101948_g44169443672662_cont_sun_m_478_8_alg».proof.Proof.Gen.KernelIdeal.Frame
import proofs.«101948_g44169443672662_cont_sun_m_478_8_alg».proof.Proof.Gen.ReferenceIdeal
import proofs.«101948_g44169443672662_cont_sun_m_478_8_alg».proof.Proof.Gen.Pre_finite_inputs
import proofs.«101948_g44169443672662_cont_sun_m_478_8_alg».proof.Proof.Gen.ReferenceIdeal.Run
import proofs.«101948_g44169443672662_cont_sun_m_478_8_alg».proof.Proof.Gen.ReferenceIdeal.Read
import proofs.«101948_g44169443672662_cont_sun_m_478_8_alg».proof.Proof.Spec
import proofs.«101948_g44169443672662_cont_sun_m_478_8_alg».proof.Proof.Finite
import proofs.«101948_g44169443672662_cont_sun_m_478_8_alg».proof.Proof.RefRead
import proofs.«101948_g44169443672662_cont_sun_m_478_8_alg».proof.Proof.Prefix
import proofs.«101948_g44169443672662_cont_sun_m_478_8_alg».proof.Proof.Tiles
import proofs.«101948_g44169443672662_cont_sun_m_478_8_alg».proof.Proof.KernelValue
import Idealize.ShloMosaic.Adequacy
import Idealize.ShloMosaic.Init

set_option maxRecDepth 16384

noncomputable section

namespace Cert.Proof

open Idealize.ShloMosaic Idealize.ShloMosaic.TcCoe Idealize.SL.Sem

/-! ## The kernel's run, with its result named -/

section KernelRun

open Cert.KernelIdeal Cert.KernelIdeal.Gen

/-- Under the precondition the idealized kernel program runs, leaves its arguments as they were, and returns the masked
    linear layer of its arguments: the frame run's result array is the packed formula of what the kernel found (Tiles),
    what it found are the host's re-laid arguments (Prefix), and the program returns that array read as 1000000 rows of 64,
    which for real entries is the reference's function (KernelValue). -/
theorem kernel_run (m : (ℓ : Loc nD τ sig) → Buf (Elt Ideal) ℓ) (ρ : Dev nD → PrngReg) (hpre : Cert.Pre_KernelIdeal m) :
    θ_run (defs (F := Ideal)) (onTc (τ := τ) (main (F := Ideal))) ⟨m, fun _ => 0, ρ⟩ (fun r => ∀ c : Dev nD,
      r.2.mem ((c.tc : Thread nD τ).loc main_v19)
          = (fun i => Cert.MaskedLinear.maskedAt (m ((c.tc : Thread nD τ).loc main_arg0)) (m ((c.tc : Thread nD τ).loc main_arg1))
              (m ((c.tc : Thread nD τ).loc main_arg2)) (m ((c.tc : Thread nD τ).loc main_arg3)) (i 0) (i 1) : S1000000x64.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r h c => ?_) (run_main m ρ)
  obtain ⟨hx, hW, hb⟩ := Cert.MaskedLinear.Finite.entries_real _ _ _ _ (hpre c)
  refine ⟨?_,
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c)⟩
  refine ((h c).2 main_v19 (Pipeline.mem_restRefs_of main_v19 (by decide) (by decide))).trans ?_
  rw [Cert.MaskedLinear.Prefix.returned_eq, Cert.MaskedLinear.Tiles.result_eq, Cert.MaskedLinear.Prefix.found_x,
    Cert.MaskedLinear.Prefix.found_m, Cert.MaskedLinear.Prefix.found_v, Cert.MaskedLinear.Prefix.found_b,
    Cert.MaskedLinear.Prefix.found_g]
  exact Cert.MaskedLinear.KernelValue.unpacked_eq _ _ _ _ hx hW hb

end KernelRun

/-! ## The claims -/

/-- The kernel as printed runs and keeps its arguments. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both programs end with the masked linear layer of the arguments. -/
theorem algebraic : Cert.algebraic_KernelIdeal_ReferenceIdeal := by
  intro m ρ m' ρ' hpre hagree
  refine ⟨_, kernel_run m ρ hpre, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.MaskedLinear.RefRead.ref_eq, (hagree c).1, (hagree c).2.1,
    (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
